-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x64 .f32) (main_arg4 : FVec F S64 .f32) (main_arg5 : FVec F S64x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x256 : Shape := ⟨2, ![10000, 256]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 63
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S10000x1, .f32⟩
  | .local _ .vmem, ⟨3, _⟩ => ⟨S10000x1, .f32⟩
  | .local _ .vmem, ⟨4, _⟩ => ⟨S256x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x256_S10000x256_0_0 : ∀ a, (![0, 0] : Fin 2 → Nat) a + S10000x256.size a ≤ S10000x256.size a
  h_S10000x256 : 0 < S10000x256.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S10000x256_S256x64_S10000x64_1_0_0_1_n_n_wf : DotDims.WF S10000x256 S256x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x256, .f32⟩
  | .hbm, ⟨21, _⟩ => ⟨S100000x256, .f32⟩
  | .hbm, ⟨22, _⟩ => ⟨S100000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .f32⟩
  | .hbm, ⟨37, _⟩ => ⟨S1600000, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S_, .f32⟩
  | .hbm, ⟨87, _⟩ => ⟨S1600000, .f32⟩
  | .hbm, ⟨88, _⟩ => ⟨S_, .f32⟩
  | .hbm, ⟨89, _⟩ => ⟨S100000, .f32⟩
  | .hbm, ⟨90, _⟩ => ⟨S1600000x1, .i32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_cst : Ref sig .tc := ⟨.hbm, 54, rfl⟩
abbrev main_call0_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_c_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_18 : Ref sig .tc := ⟨.hbm, 92, rfl⟩
abbrev main_v63 : Ref sig .tc := ⟨.hbm, 93, rfl⟩
abbrev main_v64 : Ref sig .tc := ⟨.hbm, 94, rfl⟩
abbrev main_cst_19 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with every buffer's final contents named.

  The program is four pipelined regions among three stretches of host operations.  Its run is the chain of those
  seven segments: each host stretch maps the buffer contents at its start to the contents after its operations, and
  each region replaces its arrays by what its write-backs leave and keeps every other buffer.  Folding the seven
  steps from the launch memory gives the contents `W7` at the return.  The statement here is the chain's run with the
  post "every unscoped buffer of the final memory holds `W7` there", from which both the result array and the
  unchanged arguments are read.
-/
import proofs.«160641_j8392366096423_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    in the final memory every unscoped buffer of every core holds the folded contents `W7`. -/
theorem contents : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The final memory at a reference of the TensorCore that no scope owns is the folded contents there. -/
theorem read_final {r : PUnit × MemSt nD τ sig (Elt F)}
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.Run

end
-- ==== Proof.Model.lean ====
/-
  The two-layer graph convolution that both programs compute, as ONE function of the argument arrays.

  With N = 100000 nodes and E = 1600000 edges (src e → dst e):
    deg idx   = the number of edges whose endpoint `idx e` is the node (a scatter-add of ones into zeros),
    norm idx  = max(deg idx, 1) ^ (-1/2), a vector over the nodes,
    proj x n w = ((x scaled row by row by the column of n) · w), the dense projection,
    agg h     = for each node the sum over its incoming edges e of row (src e) of h
                (a row gather by the wrapped source index, then a row scatter-add by destination),
    post a n b = a scaled row by row by the column of n, plus the row b,
    layer 1   = max(post (agg (proj x (norm src) W1)) (norm dst) b1, 0),
    layer 2   = post (agg (proj layer1 (norm src) W2)) (norm dst) b2.
  Every step is spelt with the host operations and dimension records the reference program prints, so the
  reference's composed result term is this function by unfolding.
-/
import proofs.«160641_j8392366096423_1_alg».proof.Proof.Gen.ReferenceIdeal

noncomputable section

namespace Cert.Model

open Idealize.ShloMosaic Cert.ReferenceIdeal Cert.ReferenceIdeal.Facts₀

variable {F : FTy → Type} [FloatOps F]

/-- `max(deg, 1)^(-1/2)` per node, `deg` counting the edges whose endpoint `idx` names the node. -/
def norm (idx : (⟨S1600000, .i32⟩ : BufTy).Contents (Elt F)) : (⟨S100000, .f32⟩ : BufTy).Contents (Elt F) :=
  Host.powf (maximumf (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32))) (broadcastInDim S100000 ![] bcast_S_S100000 (constant S_ .f32 0x3F800000#32))) (broadcastInDim S100000 ![] bcast_S_S100000 (constant S_ .f32 0xBF000000#32))

/-- A per-node vector as the column [N, 1]. -/
def col (n : (⟨S100000, .f32⟩ : BufTy).Contents (Elt F)) : (⟨S100000x1, .f32⟩ : BufTy).Contents (Elt F) :=
  broadcastInDim S100000x1 ![0] bcast_S100000_S100000x1_0 n

/-- A bias vector as the row [1, 64]. -/
def row (b : (⟨S64, .f32⟩ : BufTy).Contents (Elt F)) : (⟨S1x64, .f32⟩ : BufTy).Contents (Elt F) :=
  broadcastInDim S1x64 ![1] bcast_S64_S1x64_1 b

/-- The first layer's projection: the [N, 256] features, each row scaled by its entry of the column, times the
    [256, 64] weights. -/
def proj256 (x : (⟨S100000x256, .f32⟩ : BufTy).Contents (Elt F)) (n : (⟨S100000x1, .f32⟩ : BufTy).Contents (Elt F))
    (w : (⟨S256x64, .f32⟩ : BufTy).Contents (Elt F)) : (⟨S100000x64, .f32⟩ : BufTy).Contents (Elt F) :=
  Host.dotGeneral dot_S100000x256_S256x64_S100000x64_1_0_0_1_n_n none (mulf x (broadcastInDim S100000x256 ![0, 1] bcast_S100000x1_S100000x256_0_1 n)) w

/-- The second layer's projection: the [N, 64] activations, each row scaled by its entry of the column, times the
    [64, 64] weights. -/
def proj64 (x : (⟨S100000x64, .f32⟩ : BufTy).Contents (Elt F)) (n : (⟨S100000x1, .f32⟩ : BufTy).Contents (Elt F))
    (w : (⟨S64x64, .f32⟩ : BufTy).Contents (Elt F)) : (⟨S100000x64, .f32⟩ : BufTy).Contents (Elt F) :=
  Host.dotGeneral dot_S100000x64_S64x64_S100000x64_1_0_0_1_n_n none (mulf x (broadcastInDim S100000x64 ![0, 1] bcast_S100000x1_S100000x64_0_1 n)) w

/-- Message passing: row `src e` of `h` (a negative index wrapped by N) added into row `dst e`, over all edges. -/
def agg (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The aggregate scaled row by row by the column, plus the bias row. -/
def post (a : (⟨S100000x64, .f32⟩ : BufTy).Contents (Elt F)) (n : (⟨S100000x1, .f32⟩ : BufTy).Contents (Elt F))
    (b : (⟨S1x64, .f32⟩ : BufTy).Contents (Elt F)) : (⟨S100000x64, .f32⟩ : BufTy).Contents (Elt F) :=
  addf (mulf a (broadcastInDim S100000x64 ![0, 1] bcast_S100000x1_S100000x64_0_1 n)) (broadcastInDim S100000x64 ![0, 1] bcast_S1x64_S100000x64_0_1 b)

/-- The positive part, entry by entry. -/
def relu (v : (⟨S100000x64, .f32⟩ : BufTy).Contents (Elt F)) : (⟨S100000x64, .f32⟩ : BufTy).Contents (Elt F) :=
  maximumf v (broadcastInDim S100000x64 ![] bcast_S_S100000x64 (constant S_ .f32 0x00000000#32))

/-- The first layer's output. -/
def layer1 (x : (⟨S100000x256, .f32⟩ : BufTy).Contents (Elt F)) (src dst : (⟨S1600000, .i32⟩ : BufTy).Contents (Elt F))
    (w1 : (⟨S256x64, .f32⟩ : BufTy).Contents (Elt F)) (b1 : (⟨S64, .f32⟩ : BufTy).Contents (Elt F)) :
    (⟨S100000x64, .f32⟩ : BufTy).Contents (Elt F) :=
  relu (post (agg (proj256 x (col (norm src)) w1) src dst) (col (norm dst)) (row b1))

/-- The whole model: the second layer over the first. -/
def model (x : (⟨S100000x256, .f32⟩ : BufTy).Contents (Elt F)) (src dst : (⟨S1600000, .i32⟩ : BufTy).Contents (Elt F))
    (w1 : (⟨S256x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S100000x64, .f32⟩ : BufTy).Contents (Elt F) :=
  post (agg (proj64 (layer1 x src dst w1 b1) (col (norm src)) w2) src dst) (col (norm dst)) (row b2)

end Cert.Model

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.Proj1.lean ====
/-
  Region 0: the first layer's projection, block by block.

  The region's grid has ten points; point t stages rows [10000·t, 10000·t + 10000) of the features and of the
  column of norms, all of the [256, 64] weights, and writes back rows [10000·t, 10000·t + 10000) of the result.  On a
  block the body computes, at (p, q), the sum over k of (x(p, k) · n(p, 0)) · w(k, q): a matrix product of the rows
  scaled by their norms.  The whole-array projection `Model.proj256` has the same entry at row 10000·t + p, since a
  row of a product depends on that row of the left operand only.  The ten blocks tile the [100000, 64] array, so
  after the region the array is the projection of the arrays the region was entered with.
-/
import proofs.«160641_j8392366096423_1_alg».proof.Proof.Gen.KernelIdeal.Frame
import proofs.«160641_j8392366096423_1_alg».proof.Proof.Model
import proofs.«160641_j8392366096423_1_alg».proof.Proof.LibDotRows
import proofs.«160641_j8392366096423_1_alg».proof.Proof.LibLayout
import proofs.«160641_j8392366096423_1_alg».proof.Proof.LibHostLayout
import Idealize.ShloMosaic.Lib.Pipeline.Value
import Idealize.ShloMosaic.Lib.ValueIdx

set_option maxRecDepth 16384

noncomputable section

namespace Cert.KernelIdeal.Proj1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The body's result on a block at (p, q): the sum over k of the feature entry scaled by its row's norm, times the
    weight entry. -/
theorem payload_at (x0 : Vec Ideal S10000x256 .f32) (x1 : Vec Ideal S10000x1 .f32) (x2 : Vec Ideal S256x64 .f32)
    (p : Fin 10000) (q : Fin 64) :
    k0_pay1 (F := Ideal) x0 x1 x2 (ix2 p q) = ∑ k : Fin 256, (x0 (ix2 p k) * x1 (ix2 p (0 : Fin 1))) * x2 (ix2 k q) := by
  unfold k0_pay1
  refine (matmul_zero_rows dot_S10000x256_S256x64_S10000x64_1_0_0_1_n_n none rfl rfl (fun _ _ => rfl) (fun _ _ => rfl)
    (fun _ _ => rfl) (fun _ _ => rfl) _ x2 p q).trans ?_
  refine Finset.sum_congr rfl fun k _ => congrArg (· * x2 (ix2 k q)) ?_
  exact congrArg (x0 (ix2 p k) * ·) ((broadcastTo_a1_ab_apply _ _ p k).trans (congrFun (shapeCast_self x1 _) _))

/-- The whole-array projection at (r, q): the same sum, over row r. -/
theorem proj_at (x : FVec Ideal ⟨2, ![100000, 256]⟩ .f32) (n : FVec Ideal ⟨2, ![100000, 1]⟩ .f32)
    (w : FVec Ideal ⟨2, ![256, 64]⟩ .f32) (r : Fin 100000) (q : Fin 64) :
    Cert.Model.proj256 (F := Ideal) x n w (ix2 r q) = ∑ k : Fin 256, (x (ix2 r k) * n (ix2 r (0 : Fin 1))) * w (ix2 k q) := by
  unfold Cert.Model.proj256
  simp only [Host.dotGeneral]
  refine (dotGeneral_rows Cert.ReferenceIdeal.dot_S100000x256_S256x64_S100000x64_1_0_0_1_n_n none _ rfl rfl (fun _ _ => rfl)
    (fun _ _ => rfl) (fun _ _ => rfl) (fun _ _ => rfl) _ w r q).trans ?_
  refine Finset.sum_congr rfl fun k _ => congrArg (· * w (ix2 k q)) ?_
  exact congrArg (x (ix2 r k) * ·) (broadcastInDim_col_apply n _ r k)

/-- A block entry is the whole-array entry at the row the block's row sits at. -/
theorem block_entry (X : FVec Ideal ⟨2, ![100000, 256]⟩ .f32) (N : FVec Ideal ⟨2, ![100000, 1]⟩ .f32)
    (W : FVec Ideal ⟨2, ![256, 64]⟩ .f32)
    (x0 : Vec Ideal S10000x256 .f32) (x1 : Vec Ideal S10000x1 .f32) (x2 : Vec Ideal S256x64 .f32)
    (p : Fin 10000) (q : Fin 64) (r : Fin 100000)
    (h0 : ∀ k : Fin 256, x0 (ix2 p k) = X (ix2 r k))
    (h1 : x1 (ix2 p (0 : Fin 1)) = N (ix2 r (0 : Fin 1)))
    (h2 : ∀ k : Fin 256, x2 (ix2 k q) = W (ix2 k q)) :
    k0_pay1 (F := Ideal) x0 x1 x2 (ix2 p q) = Cert.Model.proj256 (F := Ideal) X N W (ix2 r q) := by
  rw [payload_at, proj_at]
  exact Finset.sum_congr rfl fun k _ => by rw [h0 k, h1, h2 k]

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The block indices over the grid: point t holds block row t of the features, of the norms and of the result,
    and the one block of the weights. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the projection of the arrays the region was entered with. -/
theorem flushed_eq (c : Dev nD) (t : Fin cfg0.N) :
    (dat0 V c).flushed 3 t = ((cfg0.win 3).blk t).view.read (Elt Ideal)
      (Cert.Model.proj256 (F := Ideal) (V c main_arg0) (V c main_v11) (V c main_arg3)) := by
  show (cfg0.win 3).cut (grid0.coords t) ((dat0 V c).after 3 t) = _
  rw [after0_3]
  unfold out0_3
  rw [View.canon_unit_zero offsets_zero]
  simp only [View.ld_unit_zero (S := S10000x256) offsets_zero, View.ld_unit_zero (S := S10000x1) offsets_zero,
    View.ld_unit_zero (S := S256x64) offsets_zero]
  obtain ⟨e00, e01, e10, e11, e20, e21, e30, e31⟩ := block_indices t
  have ht : t.val < 10 := by have := t.isLt; have hN : cfg0.N = 10 := N_0; omega
  funext j
  obtain ⟨p, q, rfl⟩ : ∃ (p : Fin 10000) (q : Fin 64), j = ix2 p q := ⟨j 0, j 1, eq_ix2 j⟩
  have hp : p.val < 10000 := p.isLt
  refine (block_entry (V c main_arg0) (V c main_v11) (V c main_arg3) (iblk0 V c 0 t) (iblk0 V c 1 t) (iblk0 V c 2 t)
    p q ⟨t.val * 10000 + p.val, by omega⟩ (fun k => ?_) ?_ (fun k => ?_)).trans ?_
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 256 + 1 * k.val = k.val; omega
  · show V c main_v11 (((cfg0.win 1).blk t).view.emb (ix2 p (0 : Fin 1))) = _
    refine congrArg (V c main_v11) (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  · show V c main_arg3 (((cfg0.win 2).blk t).view.emb (ix2 k q)) = _
    refine congrArg (V c main_arg3) (funext fun a => Fin.ext ?_)
    match a with
    | ⟨0, _⟩ => show win0_2.index t (0 : Fin 2) * 256 + 1 * k.val = k.val; omega
    | ⟨1, _⟩ => show win0_2.index t (1 : Fin 2) * 64 + 1 * q.val = q.val; omega
  · show _ = Cert.Model.proj256 (F := Ideal) (V c main_arg0) (V c main_v11) (V c main_arg3) (((cfg0.win 3).blk t).view.emb (ix2 p q))
    refine congrArg (Cert.Model.proj256 (F := Ideal) (V c main_arg0) (V c main_v11) (V c main_arg3)) (funext fun a => Fin.ext ?_)
    match a with
    | ⟨0, _⟩ => show t.val * 10000 + p.val = win0_3.index t (0 : Fin 2) * 10000 + 1 * p.val; omega
    | ⟨1, _⟩ => show q.val = win0_3.index t (1 : Fin 2) * 64 + 1 * q.val; omega

/-- An index of the result array is in point t's block iff each coordinate is in the block's range on its axis. -/
theorem mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v17).slice (win0_3.rect t)).set ↔ _
  rw [View.set_slice_whole, Rect.mem_set_unit]
  exact Iff.rfl

/-- Row r of the result lies in the block of point r / 10000: the ten blocks tile the array. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e30, e31⟩ := block_indices t
  have ht : t.val = (i 0).val / 10000 := rfl
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- After the region its result array is the projection of the arrays the region was entered with. -/
theorem final (c : Dev nD) :
    (dat0 V c).arrAt 3 cfg0.N = Cert.Model.proj256 (F := Ideal) (V c main_arg0) (V c main_v11) (V c main_arg3) :=
  (dat0 V c).arrAt_eq_of_cover 3 _ (fun t _ => flushed_eq V c t) covered

end Cert.KernelIdeal.Proj1

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.Post1.lean ====
/-
  Region 1: the first layer's normalization, bias and positive part, block by block.

  The region's grid has ten points; point t stages rows [10000·t, 10000·t + 10000) of the aggregate and of the column
  of norms, the one bias row, and writes back the same rows of the result.  On a block the body computes, at (p, q),
  a(p, q) · n(p, 0) + b(0, q), then the larger of that and zero: an entry of the result depends on the same entry of the aggregate, its
  row's norm and its column's bias only, so the whole-array function has the same entry at row 10000·t + p.  The ten
  blocks tile the [100000, 64] array, so after the region the array is that function of the arrays the region was
  entered with.
-/
import proofs.«160641_j8392366096423_1_alg».proof.Proof.Gen.KernelIdeal.Frame
import proofs.«160641_j8392366096423_1_alg».proof.Proof.Model
import proofs.«160641_j8392366096423_1_alg».proof.Proof.LibLayout
import proofs.«160641_j8392366096423_1_alg».proof.Proof.LibHostLayout
import proofs.«160641_j8392366096423_1_alg».proof.Proof.LibHostRowScalar
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Post1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The body's result on a block at (p, q). -/
theorem payload_at (x0 : Vec Ideal S10000x64 .f32) (x1 : Vec Ideal S10000x1 .f32) (x2 : Vec Ideal S1x64 .f32)
    (p : Fin 10000) (q : Fin 64) :
    k1_pay1 (F := Ideal) x0 x1 x2 (ix2 p q) = max (x0 (ix2 p q) * x1 (ix2 p (0 : Fin 1)) + x2 (ix2 (0 : Fin 1) q)) (Ideal.ofBits .f32 0x00000000#32) := by
  unfold k1_pay1
  refine congrArg₂ max (congrArg₂ (· + ·) (congrArg₂ (· * ·) ?_ ?_) ?_) ?_
  · exact congrFun (shapeCast_self x0 _) _
  · exact (broadcastTo_a1_ab_apply _ _ p q).trans (congrFun (shapeCast_self x1 _) _)
  · exact (broadcastTo_1b_ab_apply _ _ p q).trans (congrFun (shapeCast_self x2 _) _)
  · rfl

/-- The whole-array function at (r, q): the same expression, over row r. -/
theorem model_at (A : FVec Ideal ⟨2, ![100000, 64]⟩ .f32) (N : FVec Ideal ⟨2, ![100000, 1]⟩ .f32)
    (B : FVec Ideal ⟨2, ![1, 64]⟩ .f32) (r : Fin 100000) (q : Fin 64) :
    Cert.Model.relu (F := Ideal) (Cert.Model.post (F := Ideal) A N B) (ix2 r q) = max (A (ix2 r q) * N (ix2 r (0 : Fin 1)) + B (ix2 (0 : Fin 1) q)) (Ideal.ofBits .f32 0x00000000#32) := by
  unfold Cert.Model.relu Cert.Model.post
  refine congrArg₂ max (congrArg₂ (· + ·) (congrArg₂ (· * ·) rfl ?_) ?_) ?_
  · exact broadcastInDim_col_apply N _ r q
  · exact broadcastInDim_row_apply B _ r q
  · exact (broadcastInDim_scalar_apply _ _ _).trans rfl

/-- A block entry is the whole-array entry at the row the block's row sits at. -/
theorem block_entry (A : FVec Ideal ⟨2, ![100000, 64]⟩ .f32) (N : FVec Ideal ⟨2, ![100000, 1]⟩ .f32)
    (B : FVec Ideal ⟨2, ![1, 64]⟩ .f32)
    (x0 : Vec Ideal S10000x64 .f32) (x1 : Vec Ideal S10000x1 .f32) (x2 : Vec Ideal S1x64 .f32)
    (p : Fin 10000) (q : Fin 64) (r : Fin 100000)
    (h0 : x0 (ix2 p q) = A (ix2 r q))
    (h1 : x1 (ix2 p (0 : Fin 1)) = N (ix2 r (0 : Fin 1)))
    (h2 : x2 (ix2 (0 : Fin 1) q) = B (ix2 (0 : Fin 1) q)) :
    k1_pay1 (F := Ideal) x0 x1 x2 (ix2 p q) = Cert.Model.relu (F := Ideal) (Cert.Model.post (F := Ideal) A N B) (ix2 r q) := by
  rw [payload_at, model_at, h0, h1, h2]

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The block indices over the grid: point t holds block row t of the aggregate, of the norms and of the result,
    and the one bias row. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function of the arrays the region was entered with. -/
theorem flushed_eq (c : Dev nD) (t : Fin cfg1.N) :
    (dat1 V c).flushed 3 t = ((cfg1.win 3).blk t).view.read (Elt Ideal)
      (Cert.Model.relu (F := Ideal) (Cert.Model.post (F := Ideal) (V c main_v27) (V c main_v16) (V c main_v28))) := by
  show (cfg1.win 3).cut (grid1.coords t) ((dat1 V c).after 3 t) = _
  rw [after1_3]
  unfold out1_3
  rw [View.canon_unit_zero offsets_zero]
  simp only [View.ld_unit_zero (S := S10000x64) offsets_zero, View.ld_unit_zero (S := S10000x1) offsets_zero,
    View.ld_unit_zero (S := S1x64) offsets_zero]
  obtain ⟨e00, e01, e10, e11, e20, e21, e30, e31⟩ := block_indices t
  have ht : t.val < 10 := by have := t.isLt; have hN : cfg1.N = 10 := N_1; omega
  funext j
  obtain ⟨p, q, rfl⟩ : ∃ (p : Fin 10000) (q : Fin 64), j = ix2 p q := ⟨j 0, j 1, eq_ix2 j⟩
  have hp : p.val < 10000 := p.isLt
  refine (block_entry (V c main_v27) (V c main_v16) (V c main_v28) (iblk1 V c 0 t) (iblk1 V c 1 t) (iblk1 V c 2 t)
    p q ⟨t.val * 10000 + p.val, by omega⟩ ?_ ?_ ?_).trans ?_
  · show V c main_v27 (((cfg1.win 0).blk t).view.emb (ix2 p q)) = _
    refine congrArg (V c main_v27) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · show V c main_v16 (((cfg1.win 1).blk t).view.emb (ix2 p (0 : Fin 1))) = _
    refine congrArg (V c main_v16) (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  · show V c main_v28 (((cfg1.win 2).blk t).view.emb (ix2 (0 : Fin 1) q)) = _
    refine congrArg (V c main_v28) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show _ = (Cert.Model.relu (F := Ideal) (Cert.Model.post (F := Ideal) (V c main_v27) (V c main_v16) (V c main_v28))) (((cfg1.win 3).blk t).view.emb (ix2 p q))
    refine congrArg (Cert.Model.relu (F := Ideal) (Cert.Model.post (F := Ideal) (V c main_v27) (V c main_v16) (V c main_v28))) (funext fun a => Fin.ext ?_)
    match a with
    | ⟨0, _⟩ => show t.val * 10000 + p.val = win1_3.index t (0 : Fin 2) * 10000 + 1 * p.val; omega
    | ⟨1, _⟩ => show q.val = win1_3.index t (1 : Fin 2) * 64 + 1 * q.val; omega

/-- An index of the result array is in point t's block iff each coordinate is in the block's range on its axis. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v29).slice (win1_3.rect t)).set ↔ _
  rw [View.set_slice_whole, Rect.mem_set_unit]
  exact Iff.rfl

/-- Row r of the result lies in the block of point r / 10000: the ten blocks tile the array. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e30, e31⟩ := block_indices t
  have ht : t.val = (i 0).val / 10000 := rfl
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- After the region its result array is the whole-array function of the arrays the region was entered with. -/
theorem final (c : Dev nD) :
    (dat1 V c).arrAt 3 cfg1.N = Cert.Model.relu (F := Ideal) (Cert.Model.post (F := Ideal) (V c main_v27) (V c main_v16) (V c main_v28)) :=
  (dat1 V c).arrAt_eq_of_cover 3 _ (fun t _ => flushed_eq V c t) covered

end Cert.KernelIdeal.Post1

end
-- ==== Proof.Proj2.lean ====
/-
  Region 2: the second layer's projection, block by block.

  The region's grid has ten points; point t stages rows [10000·t, 10000·t + 10000) of the left operand and of the
  column of norms, all of the [64, 64] weights, and writes back rows [10000·t, 10000·t + 10000) of the result.  On a
  block the body computes, at (p, q), the sum over k of (x(p, k) · n(p, 0)) · w(k, q): a matrix product of the rows
  scaled by their norms.  The whole-array projection has the same entry at row 10000·t + p, since a row of a product
  depends on that row of the left operand only.  The ten blocks tile the [100000, 64] array, so after the region the
  array is the projection of the arrays the region was entered with.
-/
import proofs.«160641_j8392366096423_1_alg».proof.Proof.Gen.KernelIdeal.Frame
import proofs.«160641_j8392366096423_1_alg».proof.Proof.Model
import proofs.«160641_j8392366096423_1_alg».proof.Proof.LibDotRows
import proofs.«160641_j8392366096423_1_alg».proof.Proof.LibLayout
import proofs.«160641_j8392366096423_1_alg».proof.Proof.LibHostLayout
import Idealize.ShloMosaic.Lib.Pipeline.Value
import Idealize.ShloMosaic.Lib.ValueIdx
import Idealize.ShloMosaic.Lib.ValueLayout

set_option maxRecDepth 16384

noncomputable section

namespace Cert.KernelIdeal.Proj2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The body's result on a block at (p, q): the sum over k of the left entry scaled by its row's norm, times the
    weight entry. -/
theorem payload_at (x0 : Vec Ideal S10000x64 .f32) (x1 : Vec Ideal S10000x1 .f32) (x2 : Vec Ideal S64x64 .f32)
    (p : Fin 10000) (q : Fin 64) :
    k2_pay1 (F := Ideal) x0 x1 x2 (ix2 p q) = ∑ k : Fin 64, (x0 (ix2 p k) * x1 (ix2 p (0 : Fin 1))) * x2 (ix2 k q) := by
  unfold k2_pay1
  refine (matmul_zero_rows dot_S10000x64_S64x64_S10000x64_1_0_0_1_n_n none rfl rfl (fun _ _ => rfl) (fun _ _ => rfl)
    (fun _ _ => rfl) (fun _ _ => rfl) _ x2 p q).trans ?_
  refine Finset.sum_congr rfl fun k _ => congrArg (· * x2 (ix2 k q)) ?_
  exact congrArg₂ (· * ·) (congrFun (shapeCast_self x0 _) _) ((broadcastTo_a1_ab_apply _ _ p k).trans (congrFun (shapeCast_self x1 _) _))

/-- The whole-array projection at (r, q): the same sum, over row r. -/
theorem proj_at (x : FVec Ideal ⟨2, ![100000, 64]⟩ .f32) (n : FVec Ideal ⟨2, ![100000, 1]⟩ .f32)
    (w : FVec Ideal ⟨2, ![64, 64]⟩ .f32) (r : Fin 100000) (q : Fin 64) :
    Cert.Model.proj64 (F := Ideal) x n w (ix2 r q) = ∑ k : Fin 64, (x (ix2 r k) * n (ix2 r (0 : Fin 1))) * w (ix2 k q) := by
  unfold Cert.Model.proj64
  simp only [Host.dotGeneral]
  refine (dotGeneral_rows Cert.ReferenceIdeal.dot_S100000x64_S64x64_S100000x64_1_0_0_1_n_n none _ rfl rfl (fun _ _ => rfl)
    (fun _ _ => rfl) (fun _ _ => rfl) (fun _ _ => rfl) _ w r q).trans ?_
  refine Finset.sum_congr rfl fun k _ => congrArg (· * w (ix2 k q)) ?_
  exact congrArg (x (ix2 r k) * ·) (broadcastInDim_col_apply n _ r k)

/-- A block entry is the whole-array entry at the row the block's row sits at. -/
theorem block_entry (X : FVec Ideal ⟨2, ![100000, 64]⟩ .f32) (N : FVec Ideal ⟨2, ![100000, 1]⟩ .f32)
    (W : FVec Ideal ⟨2, ![64, 64]⟩ .f32)
    (x0 : Vec Ideal S10000x64 .f32) (x1 : Vec Ideal S10000x1 .f32) (x2 : Vec Ideal S64x64 .f32)
    (p : Fin 10000) (q : Fin 64) (r : Fin 100000)
    (h0 : ∀ k : Fin 64, x0 (ix2 p k) = X (ix2 r k))
    (h1 : x1 (ix2 p (0 : Fin 1)) = N (ix2 r (0 : Fin 1)))
    (h2 : ∀ k : Fin 64, x2 (ix2 k q) = W (ix2 k q)) :
    k2_pay1 (F := Ideal) x0 x1 x2 (ix2 p q) = Cert.Model.proj64 (F := Ideal) X N W (ix2 r q) := by
  rw [payload_at, proj_at]
  exact Finset.sum_congr rfl fun k _ => by rw [h0 k, h1, h2 k]

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The block indices over the grid: point t holds block row t of the left operand, of the norms and of the result,
    and the one block of the weights. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the projection of the arrays the region was entered with. -/
theorem flushed_eq (c : Dev nD) (t : Fin cfg2.N) :
    (dat2 V c).flushed 3 t = ((cfg2.win 3).blk t).view.read (Elt Ideal)
      (Cert.Model.proj64 (F := Ideal) (V c main_v29) (V c main_v11) (V c main_arg5)) := by
  show (cfg2.win 3).cut (grid2.coords t) ((dat2 V c).after 3 t) = _
  rw [after2_3]
  unfold out2_3
  rw [View.canon_unit_zero offsets_zero]
  simp only [View.ld_unit_zero (S := S10000x64) offsets_zero, View.ld_unit_zero (S := S10000x1) offsets_zero,
    View.ld_unit_zero (S := S64x64) offsets_zero]
  obtain ⟨e00, e01, e10, e11, e20, e21, e30, e31⟩ := block_indices t
  have ht : t.val < 10 := by have := t.isLt; have hN : cfg2.N = 10 := N_2; omega
  funext j
  obtain ⟨p, q, rfl⟩ : ∃ (p : Fin 10000) (q : Fin 64), j = ix2 p q := ⟨j 0, j 1, eq_ix2 j⟩
  have hp : p.val < 10000 := p.isLt
  refine (block_entry (V c main_v29) (V c main_v11) (V c main_arg5) (iblk2 V c 0 t) (iblk2 V c 1 t) (iblk2 V c 2 t)
    p q ⟨t.val * 10000 + p.val, by omega⟩ (fun k => ?_) ?_ (fun k => ?_)).trans ?_
  · show V c main_v29 (((cfg2.win 0).blk t).view.emb (ix2 p k)) = _
    refine congrArg (V c main_v29) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_v11 (((cfg2.win 1).blk t).view.emb (ix2 p (0 : Fin 1))) = _
    refine congrArg (V c main_v11) (funext fun a => Fin.ext ?_)
    match a with
    | ⟨0, _⟩ => show win2_1.index t (0 : Fin 2) * 10000 + 1 * p.val = t.val * 10000 + p.val; omega
    | ⟨1, _⟩ => show win2_1.index t (1 : Fin 2) * 1 + 1 * 0 = 0; omega
  · show V c main_arg5 (((cfg2.win 2).blk t).view.emb (ix2 k q)) = _
    refine congrArg (V c main_arg5) (funext fun a => Fin.ext ?_)
    match a with
    | ⟨0, _⟩ => show win2_2.index t (0 : Fin 2) * 64 + 1 * k.val = k.val; omega
    | ⟨1, _⟩ => show win2_2.index t (1 : Fin 2) * 64 + 1 * q.val = q.val; omega
  · show _ = (Cert.Model.proj64 (F := Ideal) (V c main_v29) (V c main_v11) (V c main_arg5)) (((cfg2.win 3).blk t).view.emb (ix2 p q))
    refine congrArg (Cert.Model.proj64 (F := Ideal) (V c main_v29) (V c main_v11) (V c main_arg5)) (funext fun a => Fin.ext ?_)
    match a with
    | ⟨0, _⟩ => show t.val * 10000 + p.val = win2_3.index t (0 : Fin 2) * 10000 + 1 * p.val; omega
    | ⟨1, _⟩ => show q.val = win2_3.index t (1 : Fin 2) * 64 + 1 * q.val; omega

/-- An index of the result array is in point t's block iff each coordinate is in the block's range on its axis. -/
theorem mem_block (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v30).slice (win2_3.rect t)).set ↔ _
  rw [View.set_slice_whole, Rect.mem_set_unit]
  exact Iff.rfl

/-- Row r of the result lies in the block of point r / 10000: the ten blocks tile the array. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, e30, e31⟩ := block_indices t
  have ht : t.val = (i 0).val / 10000 := rfl
  refine ⟨t, flush2_3 t, ?_⟩
  rw [mem_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- After the region its result array is the projection of the arrays the region was entered with. -/
theorem final (c : Dev nD) :
    (dat2 V c).arrAt 3 cfg2.N = Cert.Model.proj64 (F := Ideal) (V c main_v29) (V c main_v11) (V c main_arg5) :=
  (dat2 V c).arrAt_eq_of_cover 3 _ (fun t _ => flushed_eq V c t) covered

end Cert.KernelIdeal.Proj2

end
-- ==== Proof.Post2.lean ====
/-
  Region 3: the second layer's normalization and bias, block by block.

  The region's grid has ten points; point t stages rows [10000·t, 10000·t + 10000) of the aggregate and of the column
  of norms, the one bias row, and writes back the same rows of the result.  On a block the body computes, at (p, q),
  a(p, q) · n(p, 0) + b(0, q): an entry of the result depends on the same entry of the aggregate, its
  row's norm and its column's bias only, so the whole-array function has the same entry at row 10000·t + p.  The ten
  blocks tile the [100000, 64] array, so after the region the array is that function of the arrays the region was
  entered with.
-/
import proofs.«160641_j8392366096423_1_alg».proof.Proof.Gen.KernelIdeal.Frame
import proofs.«160641_j8392366096423_1_alg».proof.Proof.Model
import proofs.«160641_j8392366096423_1_alg».proof.Proof.LibLayout
import proofs.«160641_j8392366096423_1_alg».proof.Proof.LibHostLayout
import proofs.«160641_j8392366096423_1_alg».proof.Proof.LibHostRowScalar
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Post2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The body's result on a block at (p, q). -/
theorem payload_at (x0 : Vec Ideal S10000x64 .f32) (x1 : Vec Ideal S10000x1 .f32) (x2 : Vec Ideal S1x64 .f32)
    (p : Fin 10000) (q : Fin 64) :
    k3_pay1 (F := Ideal) x0 x1 x2 (ix2 p q) = x0 (ix2 p q) * x1 (ix2 p (0 : Fin 1)) + x2 (ix2 (0 : Fin 1) q) := by
  unfold k3_pay1
  refine congrArg₂ (· + ·) (congrArg₂ (· * ·) ?_ ?_) ?_
  · exact congrFun (shapeCast_self x0 _) _
  · exact (broadcastTo_a1_ab_apply _ _ p q).trans (congrFun (shapeCast_self x1 _) _)
  · exact (broadcastTo_1b_ab_apply _ _ p q).trans (congrFun (shapeCast_self x2 _) _)

/-- The whole-array function at (r, q): the same expression, over row r. -/
theorem model_at (A : FVec Ideal ⟨2, ![100000, 64]⟩ .f32) (N : FVec Ideal ⟨2, ![100000, 1]⟩ .f32)
    (B : FVec Ideal ⟨2, ![1, 64]⟩ .f32) (r : Fin 100000) (q : Fin 64) :
    Cert.Model.post (F := Ideal) A N B (ix2 r q) = A (ix2 r q) * N (ix2 r (0 : Fin 1)) + B (ix2 (0 : Fin 1) q) := by
  unfold Cert.Model.post
  refine congrArg₂ (· + ·) (congrArg₂ (· * ·) rfl ?_) ?_
  · exact broadcastInDim_col_apply N _ r q
  · exact broadcastInDim_row_apply B _ r q

/-- A block entry is the whole-array entry at the row the block's row sits at. -/
theorem block_entry (A : FVec Ideal ⟨2, ![100000, 64]⟩ .f32) (N : FVec Ideal ⟨2, ![100000, 1]⟩ .f32)
    (B : FVec Ideal ⟨2, ![1, 64]⟩ .f32)
    (x0 : Vec Ideal S10000x64 .f32) (x1 : Vec Ideal S10000x1 .f32) (x2 : Vec Ideal S1x64 .f32)
    (p : Fin 10000) (q : Fin 64) (r : Fin 100000)
    (h0 : x0 (ix2 p q) = A (ix2 r q))
    (h1 : x1 (ix2 p (0 : Fin 1)) = N (ix2 r (0 : Fin 1)))
    (h2 : x2 (ix2 (0 : Fin 1) q) = B (ix2 (0 : Fin 1) q)) :
    k3_pay1 (F := Ideal) x0 x1 x2 (ix2 p q) = Cert.Model.post (F := Ideal) A N B (ix2 r q) := by
  rw [payload_at, model_at, h0, h1, h2]

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The block indices over the grid: point t holds block row t of the aggregate, of the norms and of the result,
    and the one bias row. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the whole-array function of the arrays the region was entered with. -/
theorem flushed_eq (c : Dev nD) (t : Fin cfg3.N) :
    (dat3 V c).flushed 3 t = ((cfg3.win 3).blk t).view.read (Elt Ideal)
      (Cert.Model.post (F := Ideal) (V c main_v40) (V c main_v16) (V c main_v41)) := by
  show (cfg3.win 3).cut (grid3.coords t) ((dat3 V c).after 3 t) = _
  rw [after3_3]
  unfold out3_3
  rw [View.canon_unit_zero offsets_zero]
  simp only [View.ld_unit_zero (S := S10000x64) offsets_zero, View.ld_unit_zero (S := S10000x1) offsets_zero,
    View.ld_unit_zero (S := S1x64) offsets_zero]
  obtain ⟨e00, e01, e10, e11, e20, e21, e30, e31⟩ := block_indices t
  have ht : t.val < 10 := by have := t.isLt; have hN : cfg3.N = 10 := N_3; omega
  funext j
  obtain ⟨p, q, rfl⟩ : ∃ (p : Fin 10000) (q : Fin 64), j = ix2 p q := ⟨j 0, j 1, eq_ix2 j⟩
  have hp : p.val < 10000 := p.isLt
  refine (block_entry (V c main_v40) (V c main_v16) (V c main_v41) (iblk3 V c 0 t) (iblk3 V c 1 t) (iblk3 V c 2 t)
    p q ⟨t.val * 10000 + p.val, by omega⟩ ?_ ?_ ?_).trans ?_
  · show V c main_v40 (((cfg3.win 0).blk t).view.emb (ix2 p q)) = _
    refine congrArg (V c main_v40) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v16 (((cfg3.win 1).blk t).view.emb (ix2 p (0 : Fin 1))) = _
    refine congrArg (V c main_v16) (funext fun a => Fin.ext ?_)
    match a with
    | ⟨0, _⟩ => show win3_1.index t (0 : Fin 2) * 10000 + 1 * p.val = t.val * 10000 + p.val; omega
    | ⟨1, _⟩ => show win3_1.index t (1 : Fin 2) * 1 + 1 * 0 = 0; omega
  · show V c main_v41 (((cfg3.win 2).blk t).view.emb (ix2 (0 : Fin 1) q)) = _
    refine congrArg (V c main_v41) (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  · show _ = (Cert.Model.post (F := Ideal) (V c main_v40) (V c main_v16) (V c main_v41)) (((cfg3.win 3).blk t).view.emb (ix2 p q))
    refine congrArg (Cert.Model.post (F := Ideal) (V c main_v40) (V c main_v16) (V c main_v41)) (funext fun a => Fin.ext ?_)
    match a with
    | ⟨0, _⟩ => show t.val * 10000 + p.val = win3_3.index t (0 : Fin 2) * 10000 + 1 * p.val; omega
    | ⟨1, _⟩ => show q.val = win3_3.index t (1 : Fin 2) * 64 + 1 * q.val; omega

/-- An index of the result array is in point t's block iff each coordinate is in the block's range on its axis. -/
theorem mem_block (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v42).slice (win3_3.rect t)).set ↔ _
  rw [View.set_slice_whole, Rect.mem_set_unit]
  exact Iff.rfl

/-- Row r of the result lies in the block of point r / 10000: the ten blocks tile the array. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, e30, e31⟩ := block_indices t
  have ht : t.val = (i 0).val / 10000 := rfl
  refine ⟨t, flush3_3 t, ?_⟩
  rw [mem_block]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- After the region its result array is the whole-array function of the arrays the region was entered with. -/
theorem final (c : Dev nD) :
    (dat3 V c).arrAt 3 cfg3.N = Cert.Model.post (F := Ideal) (V c main_v40) (V c main_v16) (V c main_v41) :=
  (dat3 V c).arrAt_eq_of_cover 3 _ (fun t _ => flushed_eq V c t) covered

end Cert.KernelIdeal.Post2

end
-- ==== Proof.Compose.lean ====
/-
  The idealized kernel's result array as the model of the argument arrays.

  The run's buffer contents at the seven segment boundaries are a fold from the launch memory: a host stretch
  applies its operations, a region replaces its result array by what its ten write-backs leave (the whole-array
  function of the region modules) and keeps every other buffer.  Reading the fold backwards from the result buffer:
  the last region's result is `post` of the second aggregate, the destination norms and the second bias row; the
  second aggregate is `agg` of the third region's result, which is `proj64` of the second region's result and the
  source norms; the second region's result is the positive part of `post` of the first aggregate, which is `agg` of
  the first region's `proj256` of the features and the source norms.  The norm columns are reshapes of the norm
  vectors, which hold the same elements as their broadcasts along a unit axis; the bias rows likewise.  No host
  operation and no region writes an argument, so every argument is read at its launch contents.
-/
import proofs.«160641_j8392366096423_1_alg».proof.Proof.Gen.KernelIdeal.Frame
import proofs.«160641_j8392366096423_1_alg».proof.Proof.Model
import proofs.«160641_j8392366096423_1_alg».proof.Proof.Proj1
import proofs.«160641_j8392366096423_1_alg».proof.Proof.Post1
import proofs.«160641_j8392366096423_1_alg».proof.Proof.Proj2
import proofs.«160641_j8392366096423_1_alg».proof.Proof.Post2
import proofs.«160641_j8392366096423_1_alg».proof.Proof.LibHostRowScalar
import Idealize.ShloMosaic.Lib.StableHlo.Run

set_option maxRecDepth 16384

noncomputable section

namespace Cert.KernelIdeal.Compose

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The host stretches, from any contents -/

section Stretches

variable (W : Valuation τ sig (Elt Ideal))

/-- The first stretch leaves the source norms, as a column. -/
theorem first_src_norms : StableHlo.after hostOps0 W (Proc.devRef .tc main_v11)
    = Cert.Model.col (F := Ideal) (Cert.Model.norm (F := Ideal) (W (Proc.devRef .tc main_arg1))) := by
  dsimp only [hostOps0]; after_results
  exact (shapeCast_column_eq_broadcastInDim _ _ Cert.ReferenceIdeal.Facts₀.bcast_S100000_S100000x1_0).trans rfl

/-- The first stretch leaves the destination norms, as a column. -/
theorem first_dst_norms : StableHlo.after hostOps0 W (Proc.devRef .tc main_v16)
    = Cert.Model.col (F := Ideal) (Cert.Model.norm (F := Ideal) (W (Proc.devRef .tc main_arg2))) := by
  dsimp only [hostOps0]; after_results
  exact (shapeCast_column_eq_broadcastInDim _ _ Cert.ReferenceIdeal.Facts₀.bcast_S100000_S100000x1_0).trans rfl

/-- The first stretch writes no argument. -/
theorem first_keeps_arg0 : StableHlo.after hostOps0 W (Proc.devRef .tc main_arg0) = W (Proc.devRef .tc main_arg0) := by
  dsimp only [hostOps0]; after_results <;> rfl
/-- The first stretch writes no argument. -/
theorem first_keeps_arg1 : StableHlo.after hostOps0 W (Proc.devRef .tc main_arg1) = W (Proc.devRef .tc main_arg1) := by
  dsimp only [hostOps0]; after_results <;> rfl
/-- The first stretch writes no argument. -/
theorem first_keeps_arg2 : StableHlo.after hostOps0 W (Proc.devRef .tc main_arg2) = W (Proc.devRef .tc main_arg2) := by
  dsimp only [hostOps0]; after_results <;> rfl
/-- The first stretch writes no argument. -/
theorem first_keeps_arg3 : StableHlo.after hostOps0 W (Proc.devRef .tc main_arg3) = W (Proc.devRef .tc main_arg3) := by
  dsimp only [hostOps0]; after_results <;> rfl
/-- The first stretch writes no argument. -/
theorem first_keeps_arg4 : StableHlo.after hostOps0 W (Proc.devRef .tc main_arg4) = W (Proc.devRef .tc main_arg4) := by
  dsimp only [hostOps0]; after_results <;> rfl
/-- The first stretch writes no argument. -/
theorem first_keeps_arg5 : StableHlo.after hostOps0 W (Proc.devRef .tc main_arg5) = W (Proc.devRef .tc main_arg5) := by
  dsimp only [hostOps0]; after_results <;> rfl
/-- The first stretch writes no argument. -/
theorem first_keeps_arg6 : StableHlo.after hostOps0 W (Proc.devRef .tc main_arg6) = W (Proc.devRef .tc main_arg6) := by
  dsimp only [hostOps0]; after_results <;> rfl

/-- The second stretch gathers the first projection's rows by source and adds them by destination. -/
theorem second_aggregate : StableHlo.after hostOps1 W (Proc.devRef .tc main_v27)
    = Cert.Model.agg (F := Ideal) (W (Proc.devRef .tc main_v17)) (W (Proc.devRef .tc main_arg1)) (W (Proc.devRef .tc main_arg2)) := by
  dsimp only [hostOps1]; after_results; rfl

/-- The second stretch lays the first bias out as a row. -/
theorem second_bias_row : StableHlo.after hostOps1 W (Proc.devRef .tc main_v28) = Cert.Model.row (F := Ideal) (W (Proc.devRef .tc main_arg4)) := by
  dsimp only [hostOps1]; after_results
  exact (shapeCast_row_eq_broadcastInDim _ _ Cert.ReferenceIdeal.Facts₀.bcast_S64_S1x64_1).trans rfl

/-- The second stretch does not write this buffer. -/
theorem second_keeps_v16 : StableHlo.after hostOps1 W (Proc.devRef .tc main_v16) = W (Proc.devRef .tc main_v16) := by
  dsimp only [hostOps1]; after_results <;> rfl
/-- The second stretch does not write this buffer. -/
theorem second_keeps_v11 : StableHlo.after hostOps1 W (Proc.devRef .tc main_v11) = W (Proc.devRef .tc main_v11) := by
  dsimp only [hostOps1]; after_results <;> rfl
/-- The second stretch does not write this buffer. -/
theorem second_keeps_arg1 : StableHlo.after hostOps1 W (Proc.devRef .tc main_arg1) = W (Proc.devRef .tc main_arg1) := by
  dsimp only [hostOps1]; after_results <;> rfl
/-- The second stretch does not write this buffer. -/
theorem second_keeps_arg2 : StableHlo.after hostOps1 W (Proc.devRef .tc main_arg2) = W (Proc.devRef .tc main_arg2) := by
  dsimp only [hostOps1]; after_results <;> rfl
/-- The second stretch does not write this buffer. -/
theorem second_keeps_arg5 : StableHlo.after hostOps1 W (Proc.devRef .tc main_arg5) = W (Proc.devRef .tc main_arg5) := by
  dsimp only [hostOps1]; after_results <;> rfl
/-- The second stretch does not write this buffer. -/
theorem second_keeps_arg6 : StableHlo.after hostOps1 W (Proc.devRef .tc main_arg6) = W (Proc.devRef .tc main_arg6) := by
  dsimp only [hostOps1]; after_results <;> rfl

/-- The third stretch gathers the second projection's rows by source and adds them by destination. -/
theorem third_aggregate : StableHlo.after hostOps3 W (Proc.devRef .tc main_v40)
    = Cert.Model.agg (F := Ideal) (W (Proc.devRef .tc main_v30)) (W (Proc.devRef .tc main_arg1)) (W (Proc.devRef .tc main_arg2)) := by
  dsimp only [hostOps3]; after_results; rfl

/-- The third stretch lays the second bias out as a row. -/
theorem third_bias_row : StableHlo.after hostOps3 W (Proc.devRef .tc main_v41) = Cert.Model.row (F := Ideal) (W (Proc.devRef .tc main_arg6)) := by
  dsimp only [hostOps3]; after_results
  exact (shapeCast_row_eq_broadcastInDim _ _ Cert.ReferenceIdeal.Facts₀.bcast_S64_S1x64_1).trans rfl

/-- The third stretch does not write the destination norms. -/
theorem third_keeps_v16 : StableHlo.after hostOps3 W (Proc.devRef .tc main_v16) = W (Proc.devRef .tc main_v16) := by
  dsimp only [hostOps3]; after_results <;> rfl

end Stretches

/-! ## The contents at each boundary, in terms of the launch memory -/

variable (m : (ℓ : Loc nD τ sig) → Buf (Elt Ideal) ℓ) (ρ : Dev nD → PrngReg) (c : Dev nD)

/-! ### After the first stretch -/

theorem w1_arg0 : W1 m ρ c (Proc.devRef .tc main_arg0) = (m ((c : Thread nD τ).loc main_arg0)) :=
  (first_keeps_arg0 (W0 m ρ c)).trans rfl
theorem w1_arg1 : W1 m ρ c (Proc.devRef .tc main_arg1) = (m ((c : Thread nD τ).loc main_arg1)) :=
  (first_keeps_arg1 (W0 m ρ c)).trans rfl
theorem w1_arg2 : W1 m ρ c (Proc.devRef .tc main_arg2) = (m ((c : Thread nD τ).loc main_arg2)) :=
  (first_keeps_arg2 (W0 m ρ c)).trans rfl
theorem w1_arg3 : W1 m ρ c (Proc.devRef .tc main_arg3) = (m ((c : Thread nD τ).loc main_arg3)) :=
  (first_keeps_arg3 (W0 m ρ c)).trans rfl
theorem w1_arg4 : W1 m ρ c (Proc.devRef .tc main_arg4) = (m ((c : Thread nD τ).loc main_arg4)) :=
  (first_keeps_arg4 (W0 m ρ c)).trans rfl
theorem w1_arg5 : W1 m ρ c (Proc.devRef .tc main_arg5) = (m ((c : Thread nD τ).loc main_arg5)) :=
  (first_keeps_arg5 (W0 m ρ c)).trans rfl
theorem w1_arg6 : W1 m ρ c (Proc.devRef .tc main_arg6) = (m ((c : Thread nD τ).loc main_arg6)) :=
  (first_keeps_arg6 (W0 m ρ c)).trans rfl
theorem w1_v11 : W1 m ρ c (Proc.devRef .tc main_v11) = (Cert.Model.col (F := Ideal) (Cert.Model.norm (F := Ideal) (m ((c : Thread nD τ).loc main_arg1)))) :=
  (first_src_norms (W0 m ρ c)).trans rfl
theorem w1_v16 : W1 m ρ c (Proc.devRef .tc main_v16) = (Cert.Model.col (F := Ideal) (Cert.Model.norm (F := Ideal) (m ((c : Thread nD τ).loc main_arg2)))) :=
  (first_dst_norms (W0 m ρ c)).trans rfl

/-! ### After region 0 -/

theorem w2_v17 : W2 m ρ c (Proc.devRef .tc main_v17) = (Cert.Model.proj256 (F := Ideal) (m ((c : Thread nD τ).loc main_arg0)) (Cert.Model.col (F := Ideal) (Cert.Model.norm (F := Ideal) (m ((c : Thread nD τ).loc main_arg1)))) (m ((c : Thread nD τ).loc main_arg3))) := by
  refine (W2_arr m ρ c 3).trans ((Proj1.final (V1 m ρ) c).trans ?_)
  show Cert.Model.proj256 (F := Ideal) (W1 m ρ c (Proc.devRef .tc main_arg0)) (W1 m ρ c (Proc.devRef .tc main_v11)) (W1 m ρ c (Proc.devRef .tc main_arg3)) = _
  rw [w1_arg0, w1_v11, w1_arg3]
theorem w2_v11 : W2 m ρ c (Proc.devRef .tc main_v11) = (Cert.Model.col (F := Ideal) (Cert.Model.norm (F := Ideal) (m ((c : Thread nD τ).loc main_arg1)))) :=
  (W2_arr m ρ c 1).trans (((dat0 (V1 m ρ) c).arrAt_in 1 rfl _).trans ((A_eq0 (V1 m ρ) c 1).trans (w1_v11 m ρ c)))
theorem w2_arg1 : W2 m ρ c (Proc.devRef .tc main_arg1) = (m ((c : Thread nD τ).loc main_arg1)) :=
  (W2_of_ne m ρ c main_arg1 (by decide)).trans (w1_arg1 m ρ c)
theorem w2_arg2 : W2 m ρ c (Proc.devRef .tc main_arg2) = (m ((c : Thread nD τ).loc main_arg2)) :=
  (W2_of_ne m ρ c main_arg2 (by decide)).trans (w1_arg2 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_v16 : W2 m ρ c (Proc.devRef .tc main_v16) = (Cert.Model.col (F := Ideal) (Cert.Model.norm (F := Ideal) (m ((c : Thread nD τ).loc main_arg2)))) :=
  (W2_of_ne m ρ c main_v16 (by decide)).trans (w1_v16 m ρ c)

/-! ### After the second stretch -/

theorem w3_v27 : W3 m ρ c (Proc.devRef .tc main_v27) = (Cert.Model.agg (F := Ideal) (Cert.Model.proj256 (F := Ideal) (m ((c : Thread nD τ).loc main_arg0)) (Cert.Model.col (F := Ideal) (Cert.Model.norm (F := Ideal) (m ((c : Thread nD τ).loc main_arg1)))) (m ((c : Thread nD τ).loc main_arg3))) (m ((c : Thread nD τ).loc main_arg1)) (m ((c : Thread nD τ).loc main_arg2))) := by
  refine (second_aggregate (W2 m ρ c)).trans ?_
  rw [w2_v17, w2_arg1, w2_arg2]
theorem w3_v28 : W3 m ρ c (Proc.devRef .tc main_v28) = (Cert.Model.row (F := Ideal) (m ((c : Thread nD τ).loc main_arg4))) := by
  refine (second_bias_row (W2 m ρ c)).trans ?_
  rw [w2_arg4]
theorem w3_v16 : W3 m ρ c (Proc.devRef .tc main_v16) = (Cert.Model.col (F := Ideal) (Cert.Model.norm (F := Ideal) (m ((c : Thread nD τ).loc main_arg2)))) :=
  (second_keeps_v16 (W2 m ρ c)).trans (w2_v16 m ρ c)
theorem w3_v11 : W3 m ρ c (Proc.devRef .tc main_v11) = (Cert.Model.col (F := Ideal) (Cert.Model.norm (F := Ideal) (m ((c : Thread nD τ).loc main_arg1)))) :=
  (second_keeps_v11 (W2 m ρ c)).trans (w2_v11 m ρ c)
theorem w3_arg1 : W3 m ρ c (Proc.devRef .tc main_arg1) = (m ((c : Thread nD τ).loc main_arg1)) :=
  (second_keeps_arg1 (W2 m ρ c)).trans (w2_arg1 m ρ c)
theorem w3_arg2 : W3 m ρ c (Proc.devRef .tc main_arg2) = (m ((c : Thread nD τ).loc main_arg2)) :=
  (second_keeps_arg2 (W2 m ρ c)).trans (w2_arg2 m ρ c)
theorem w3_arg5 : W3 m ρ c (Proc.devRef .tc main_arg5) = (m ((c : Thread nD τ).loc main_arg5)) :=
  (second_keeps_arg5 (W2 m ρ c)).trans (w2_arg5 m ρ c)
theorem w3_arg6 : W3 m ρ c (Proc.devRef .tc main_arg6) = (m ((c : Thread nD τ).loc main_arg6)) :=
  (second_keeps_arg6 (W2 m ρ c)).trans (w2_arg6 m ρ c)

/-! ### After region 1 -/

theorem w4_v29 : W4 m ρ c (Proc.devRef .tc main_v29) = (Cert.Model.relu (F := Ideal) (Cert.Model.post (F := Ideal) (Cert.Model.agg (F := Ideal) (Cert.Model.proj256 (F := Ideal) (m ((c : Thread nD τ).loc main_arg0)) (Cert.Model.col (F := Ideal) (Cert.Model.norm (F := Ideal) (m ((c : Thread nD τ).loc main_arg1)))) (m ((c : Thread nD τ).loc main_arg3))) (m ((c : Thread nD τ).loc main_arg1)) (m ((c : Thread nD τ).loc main_arg2))) (Cert.Model.col (F := Ideal) (Cert.Model.norm (F := Ideal) (m ((c : Thread nD τ).loc main_arg2)))) (Cert.Model.row (F := Ideal) (m ((c : Thread nD τ).loc main_arg4))))) := by
  refine (W4_arr m ρ c 3).trans ((Post1.final (V3 m ρ) c).trans ?_)
  show Cert.Model.relu (F := Ideal) (Cert.Model.post (F := Ideal) (W3 m ρ c (Proc.devRef .tc main_v27)) (W3 m ρ c (Proc.devRef .tc main_v16)) (W3 m ρ c (Proc.devRef .tc main_v28))) = _
  rw [w3_v27, w3_v16, w3_v28]
theorem w4_v16 : W4 m ρ c (Proc.devRef .tc main_v16) = (Cert.Model.col (F := Ideal) (Cert.Model.norm (F := Ideal) (m ((c : Thread nD τ).loc main_arg2)))) :=
  (W4_arr m ρ c 1).trans (((dat1 (V3 m ρ) c).arrAt_in 1 rfl _).trans ((A_eq1 (V3 m ρ) c 1).trans (w3_v16 m ρ c)))
theorem w4_v11 : W4 m ρ c (Proc.devRef .tc main_v11) = (Cert.Model.col (F := Ideal) (Cert.Model.norm (F := Ideal) (m ((c : Thread nD τ).loc main_arg1)))) :=
  (W4_of_ne m ρ c main_v11 (by decide)).trans (w3_v11 m ρ c)
theorem w4_arg1 : W4 m ρ c (Proc.devRef .tc main_arg1) = (m ((c : Thread nD τ).loc main_arg1)) :=
  (W4_of_ne m ρ c main_arg1 (by decide)).trans (w3_arg1 m ρ c)
theorem w4_arg2 : W4 m ρ c (Proc.devRef .tc main_arg2) = (m ((c : Thread nD τ).loc main_arg2)) :=
  (W4_of_ne m ρ c main_arg2 (by decide)).trans (w3_arg2 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)

/-! ### After region 2 -/

theorem w5_v30 : W5 m ρ c (Proc.devRef .tc main_v30) = (Cert.Model.proj64 (F := Ideal) (Cert.Model.relu (F := Ideal) (Cert.Model.post (F := Ideal) (Cert.Model.agg (F := Ideal) (Cert.Model.proj256 (F := Ideal) (m ((c : Thread nD τ).loc main_arg0)) (Cert.Model.col (F := Ideal) (Cert.Model.norm (F := Ideal) (m ((c : Thread nD τ).loc main_arg1)))) (m ((c : Thread nD τ).loc main_arg3))) (m ((c : Thread nD τ).loc main_arg1)) (m ((c : Thread nD τ).loc main_arg2))) (Cert.Model.col (F := Ideal) (Cert.Model.norm (F := Ideal) (m ((c : Thread nD τ).loc main_arg2)))) (Cert.Model.row (F := Ideal) (m ((c : Thread nD τ).loc main_arg4))))) (Cert.Model.col (F := Ideal) (Cert.Model.norm (F := Ideal) (m ((c : Thread nD τ).loc main_arg1)))) (m ((c : Thread nD τ).loc main_arg5))) := by
  refine (W5_arr m ρ c 3).trans ((Proj2.final (V4 m ρ) c).trans ?_)
  show Cert.Model.proj64 (F := Ideal) (W4 m ρ c (Proc.devRef .tc main_v29)) (W4 m ρ c (Proc.devRef .tc main_v11)) (W4 m ρ c (Proc.devRef .tc main_arg5)) = _
  rw [w4_v29, w4_v11, w4_arg5]
theorem w5_arg1 : W5 m ρ c (Proc.devRef .tc main_arg1) = (m ((c : Thread nD τ).loc main_arg1)) :=
  (W5_of_ne m ρ c main_arg1 (by decide)).trans (w4_arg1 m ρ c)
theorem w5_arg2 : W5 m ρ c (Proc.devRef .tc main_arg2) = (m ((c : Thread nD τ).loc main_arg2)) :=
  (W5_of_ne m ρ c main_arg2 (by decide)).trans (w4_arg2 m ρ c)
theorem w5_arg6 : W5 m ρ c (Proc.devRef .tc main_arg6) = (m ((c : Thread nD τ).loc main_arg6)) :=
  (W5_of_ne m ρ c main_arg6 (by decide)).trans (w4_arg6 m ρ c)
theorem w5_v16 : W5 m ρ c (Proc.devRef .tc main_v16) = (Cert.Model.col (F := Ideal) (Cert.Model.norm (F := Ideal) (m ((c : Thread nD τ).loc main_arg2)))) :=
  (W5_of_ne m ρ c main_v16 (by decide)).trans (w4_v16 m ρ c)

/-! ### After the third stretch -/

theorem w6_v40 : W6 m ρ c (Proc.devRef .tc main_v40) = (Cert.Model.agg (F := Ideal) (Cert.Model.proj64 (F := Ideal) (Cert.Model.relu (F := Ideal) (Cert.Model.post (F := Ideal) (Cert.Model.agg (F := Ideal) (Cert.Model.proj256 (F := Ideal) (m ((c : Thread nD τ).loc main_arg0)) (Cert.Model.col (F := Ideal) (Cert.Model.norm (F := Ideal) (m ((c : Thread nD τ).loc main_arg1)))) (m ((c : Thread nD τ).loc main_arg3))) (m ((c : Thread nD τ).loc main_arg1)) (m ((c : Thread nD τ).loc main_arg2))) (Cert.Model.col (F := Ideal) (Cert.Model.norm (F := Ideal) (m ((c : Thread nD τ).loc main_arg2)))) (Cert.Model.row (F := Ideal) (m ((c : Thread nD τ).loc main_arg4))))) (Cert.Model.col (F := Ideal) (Cert.Model.norm (F := Ideal) (m ((c : Thread nD τ).loc main_arg1)))) (m ((c : Thread nD τ).loc main_arg5))) (m ((c : Thread nD τ).loc main_arg1)) (m ((c : Thread nD τ).loc main_arg2))) := by
  refine (third_aggregate (W5 m ρ c)).trans ?_
  rw [w5_v30, w5_arg1, w5_arg2]
theorem w6_v41 : W6 m ρ c (Proc.devRef .tc main_v41) = (Cert.Model.row (F := Ideal) (m ((c : Thread nD τ).loc main_arg6))) := by
  refine (third_bias_row (W5 m ρ c)).trans ?_
  rw [w5_arg6]
theorem w6_v16 : W6 m ρ c (Proc.devRef .tc main_v16) = (Cert.Model.col (F := Ideal) (Cert.Model.norm (F := Ideal) (m ((c : Thread nD τ).loc main_arg2)))) :=
  (third_keeps_v16 (W5 m ρ c)).trans (w5_v16 m ρ c)

/-! ### At the return -/

/-- The result buffer holds the model of the argument arrays as launched. -/
theorem result : W7 m ρ c (Proc.devRef .tc main_v42)
    = Cert.Model.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 3).trans ((Post2.final (V6 m ρ) c).trans ?_)
  show Cert.Model.post (F := Ideal) (W6 m ρ c (Proc.devRef .tc main_v40)) (W6 m ρ c (Proc.devRef .tc main_v16)) (W6 m ρ c (Proc.devRef .tc main_v41)) = _
  rw [w6_v40, w6_v16, w6_v41]
  rfl

end Cert.KernelIdeal.Compose

end
-- ==== Proof.RefModel.lean ====
/-
  The reference's result term is the model of the argument arrays.

  The reference computes the two layers with host operations only: the degree norms (twice per layer, from the same
  edge lists, hence the same vectors), the projection as one whole matrix product, the gather by source and the
  scatter-add by destination, the scaling by the destination norms, the bias, and the positive part between the
  layers.  Its composed result term is the model's definition unfolded, operation for operation.
-/
import proofs.«160641_j8392366096423_1_alg».proof.Proof.Gen.ReferenceIdeal.Run
import proofs.«160641_j8392366096423_1_alg».proof.Proof.Model

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's result, as composed from its operations, is the model of its argument arrays. -/
theorem result_eq (m : (ℓ : Loc nD τ sig) → Buf (Elt F) ℓ) (c : Dev nD) :
    Cert.ReferenceIdeal.Value.res_main_v72 (F := F) m c
      = Cert.Model.model (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v72
  rfl

end Cert.ReferenceIdeal.RefValue

end
-- ==== Proof.lean ====
/-
  The certificate of a two-layer graph convolution (normalization by both degrees, a ReLU between the layers) whose
  dense steps run as four pipelined regions, against its plain reference.

  Both programs compute the same composition.  With the degree norms n_src = max(deg_src, 1)^(-1/2) and
  n_dst = max(deg_dst, 1)^(-1/2), a layer is   post(agg(proj(x, n_src, W)), n_dst, b)   where proj scales each row of
  x by its norm and multiplies by W, agg gathers rows by source and adds them by destination, and post scales each
  row by its norm and adds the bias row; the first layer is followed by the positive part.  In the kernel the
  norms and agg are host operations and proj / post are regions over ten blocks of 10000 rows; in the reference
  everything is a host operation on whole arrays.  A row of a matrix product depends only on that row of the left
  operand, and post acts entry by entry, so each region leaves the whole-array function of the arrays it was entered
  with (Proj1, Post1, Proj2, Post2); the contents at the segment boundaries then compose to the model (Compose), and the
  reference's composed term is the model by unfolding (RefModel).  No law of the extended reals beyond the meaning
  of the operations is used: the two sides apply the same operations to the same numbers, so the finiteness of the
  inputs is not needed.

  The idealization rewrote nothing (its ledger is empty), so `preserves` is `True`.
-/
import proofs.«160641_j8392366096423_1_alg».proof.Defs
import proofs.«160641_j8392366096423_1_alg».proof.Proof.Gen.Kernel
import proofs.«160641_j8392366096423_1_alg».proof.Proof.Gen.Kernel.Skeleton
import proofs.«160641_j8392366096423_1_alg».proof.Proof.Gen.Kernel.Launch
import proofs.«160641_j8392366096423_1_alg».proof.Proof.Gen.Kernel.Points
import proofs.«160641_j8392366096423_1_alg».proof.Proof.Gen.Kernel.Frame
import proofs.«160641_j8392366096423_1_alg».proof.Proof.Gen.KernelIdeal
import proofs.«160641_j8392366096423_1_alg».proof.Proof.Gen.KernelIdeal.Skeleton
import proofs.«160641_j8392366096423_1_alg».proof.Proof.Gen.KernelIdeal.Launch
import proofs.«160641_j8392366096423_1_alg».proof.Proof.Gen.KernelIdeal.Points
import proofs.«160641_j8392366096423_1_alg».proof.Proof.Gen.KernelIdeal.Frame
import proofs.«160641_j8392366096423_1_alg».proof.Proof.Gen.ReferenceIdeal
import proofs.«160641_j8392366096423_1_alg».proof.Proof.Gen.Pre_finite_inputs
import proofs.«160641_j8392366096423_1_alg».proof.Proof.Gen.ReferenceIdeal.Run
import proofs.«160641_j8392366096423_1_alg».proof.Proof.KernelRun
import proofs.«160641_j8392366096423_1_alg».proof.Proof.Compose
import proofs.«160641_j8392366096423_1_alg».proof.Proof.RefModel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the model of the argument arrays: the kernel's by the contents at its
    segment boundaries, the reference's by unfolding its composed term, the arguments agreeing. -/
theorem algebraic : Cert.algebraic_KernelIdeal_ReferenceIdeal := by
  intro m ρ m' ρ' _ hagree
  refine ⟨fun c => Cert.Model.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Run.contents (F := Ideal) m ρ)
    exact ⟨(Cert.KernelIdeal.Run.read_final m ρ h c Cert.KernelIdeal.main_v42 (by decide)).trans (Cert.KernelIdeal.Compose.result m ρ c),
      (Cert.KernelIdeal.Run.read_final m ρ h c Cert.KernelIdeal.main_arg0 (by decide)).trans (Cert.KernelIdeal.Gen.W7_main_arg0 m ρ c),
      (Cert.KernelIdeal.Run.read_final m ρ h c Cert.KernelIdeal.main_arg1 (by decide)).trans (Cert.KernelIdeal.Gen.W7_main_arg1 m ρ c),
      (Cert.KernelIdeal.Run.read_final m ρ h c Cert.KernelIdeal.main_arg2 (by decide)).trans (Cert.KernelIdeal.Gen.W7_main_arg2 m ρ c),
      (Cert.KernelIdeal.Run.read_final m ρ h c Cert.KernelIdeal.main_arg3 (by decide)).trans (Cert.KernelIdeal.Gen.W7_main_arg3 m ρ c),
      (Cert.KernelIdeal.Run.read_final m ρ h c Cert.KernelIdeal.main_arg4 (by decide)).trans (Cert.KernelIdeal.Gen.W7_main_arg4 m ρ c),
      (Cert.KernelIdeal.Run.read_final m ρ h c Cert.KernelIdeal.main_arg5 (by decide)).trans (Cert.KernelIdeal.Gen.W7_main_arg5 m ρ c),
      (Cert.KernelIdeal.Run.read_final m ρ h c Cert.KernelIdeal.main_arg6 (by decide)).trans (Cert.KernelIdeal.Gen.W7_main_arg6 m ρ c)⟩
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans ?_
    rw [(hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
